-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x4096 .f32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S512x1024 : Shape := ⟨2, ![512, 1024]⟩
abbrev S1x1024 : Shape := ⟨2, ![1, 1024]⟩
abbrev S2048x1024 : Shape := ⟨2, ![2048, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096x4096, .bf16⟩
  | .hbm, ⟨6, _⟩ => ⟨S4096x4096, .bf16⟩
  | .hbm, ⟨7, _⟩ => ⟨S1x4096, .f32⟩
  | .hbm, ⟨8, _⟩ => ⟨S4096x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .bf16 = 32 ∨ (Rect.block (s := S4096x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one grid point of the blocked product leaves behind, as values. The body keeps a running block in a
  scratch buffer: at the first reduction step it writes the zero block and adds the step's product of blocks to it,
  at every later step it adds the step's product to what the step before left, and at the last step it also
  writes the running block plus the bias row to the output block. Each of the four statements below reads the
  stores one case of the body performs back as one value of the blocks the point was given.
-/
import proofs.«109272_j18107582120284_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First reduction step: the running block becomes the zero block plus the step's product. -/
theorem sout_A (c : Dev nD) (i : grid0.Coords) (a3 : Memref sig .tc .vmem S2048x512 .bf16) (h3 : a3.IsWhole)
    (a4 : Memref sig .tc .vmem S512x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : cond0_0 i) (hc1 : ¬cond0_1 i)
    (x0 : Vec F S2048x512 .bf16) (x1 : Vec F S512x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz]
  simp only [View.readCov_unit_zero (S := S2048x1024) _ hz, View.readAt_eq_ld, h3.read_unread, h4.read_unread,
    View.ld_unit_zero (S := S2048x512) hz, View.ld_unit_zero (S := S512x1024) hz]

/-- A middle reduction step: the running block becomes what the step before left plus the step's product. -/
theorem sout_B (c : Dev nD) (i : grid0.Coords) (a3 : Memref sig .tc .vmem S2048x512 .bf16) (h3 : a3.IsWhole)
    (a4 : Memref sig .tc .vmem S512x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : ¬cond0_1 i)
    (x0 : Vec F S2048x512 .bf16) (x1 : Vec F S512x1024 .bf16) (x2 : Vec F S1x1024 .f32) (xs0 : Vec F S2048x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread,
    View.ld_unit_zero (S := S2048x1024) hz, View.ld_unit_zero (S := S2048x512) hz, View.ld_unit_zero (S := S512x1024) hz]

/-- The last reduction step leaves the same in the running block. -/
theorem sout_C (c : Dev nD) (i : grid0.Coords) (a3 : Memref sig .tc .vmem S2048x512 .bf16) (h3 : a3.IsWhole)
    (a4 : Memref sig .tc .vmem S512x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .bf16) (x1 : Vec F S512x1024 .bf16) (x2 : Vec F S1x1024 .f32) (xs0 : Vec F S2048x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread,
    View.ld_unit_zero (S := S2048x1024) hz, View.ld_unit_zero (S := S2048x512) hz, View.ld_unit_zero (S := S512x1024) hz]

/-- The last reduction step writes, to the output block, the finished running block plus the bias row. -/
theorem out_C (c : Dev nD) (i : grid0.Coords) (a3 : Memref sig .tc .vmem S2048x512 .bf16) (h3 : a3.IsWhole)
    (a4 : Memref sig .tc .vmem S512x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .bf16) (x1 : Vec F S512x1024 .bf16) (x2 : Vec F S1x1024 .f32) (xs0 : Vec F S2048x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readCov_unit_zero (S := S2048x1024) _ hz, View.readAt_eq_ld, h3.read_unread, h4.read_unread, h5.read_unread, h7.read_unread,
    View.ld_unit_zero (S := S2048x1024) hz, View.ld_unit_zero (S := S2048x512) hz, View.ld_unit_zero (S := S512x1024) hz,
    View.ld_unit_zero (S := S1x1024) hz]

end Cert.KernelIdeal.Pieces

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.Payloads.lean ====
/-
  The arithmetic of one grid point, read at one entry of the 2048×1024 block at the exact (extended real) values.
  One reduction step adds to the running block the product of a 2048×512 block of the left matrix with a 512×1024
  block of the right matrix: at entry (p, q) that is the running entry plus the sum over the 512 shared positions of
  left(p, c) · right(c, q). The first step starts from the zero block; the last step adds the bias row, the same
  in every row of the block.
-/
import proofs.«109272_j18107582120284_2_alg».proof.Proof.Gen.KernelIdeal.Skeleton
import proofs.«109272_j18107582120284_2_alg».proof.Proof.LibDense
import Idealize.ShloMosaic.Lib.ValueLayout
import Idealize.ShloMosaic.PureOps.Ideal.Laws

noncomputable section

namespace Cert.KernelIdeal.Payloads

open Idealize.ShloMosaic Idealize.ShloMosaic.TcCoe Idealize.ShloMosaic.ValueIdx
open Cert.KernelIdeal Cert.KernelIdeal.Gen

variable {F : FTy → Type} [FloatOps F]

/-- The product of a left block with a right block, started from the zero block: one reduction step's addend. -/
def stepProd (x0 : Vec F S2048x512 .bf16) (x1 : Vec F S512x1024 .bf16) : FVec F S2048x1024 .f32 :=
  matmul dot_S2048x512_S512x1024_S2048x1024_1_0_0_1_n_n none x0 x1 (constant S2048x1024 .f32 0x00000000#32)

/-- The block every first reduction step starts from. -/
def zeroBlock : FVec F S2048x1024 .f32 := broadcast S2048x1024 (Scalar.ofBits .f32 0x00000000#32)

theorem pay1_eq : k0_pay1 (F := F) = zeroBlock := by
  unfold k0_pay1 zeroBlock
  simp only [shapeCast_self]

/-- A reduction step leaves the running block plus the step's product. -/
theorem pay2_eq (v3 : Vec F S2048x1024 .f32) (x0 : Vec F S2048x512 .bf16) (x1 : Vec F S512x1024 .bf16) :
    k0_pay2 v3 x0 x1 = addf v3 (stepProd x0 x1) := by
  unfold k0_pay2 stepProd
  simp only [shapeCast_self]

/-- The last step's output: the running block plus the bias row spread over the rows. -/
theorem pay3_eq (v16 : Vec F S2048x1024 .f32) (x2 : Vec F S1x1024 .f32) :
    k0_pay3 v16 x2 = addf v16 (broadcastTo S2048x1024 x2 broadcasts_S1x1024_S2048x1024) := by
  unfold k0_pay3
  simp only [shapeCast_self]

/-- The zero block's entries are the real number zero. -/
theorem zeroBlock_apply (y : S2048x1024.Idx) : zeroBlock (F := Ideal) y = 0 := by
  show Ideal.ofBits .f32 0x00000000#32 = 0
  exact Ideal.ofBits_zero_f32

/-- A step's product at entry (p, q): the sum over the shared positions. -/
theorem stepProd_apply (x0 : Vec Ideal S2048x512 .bf16) (x1 : Vec Ideal S512x1024 .bf16) (p : Fin 2048) (q : Fin 1024) :
    stepProd (F := Ideal) x0 x1 (ix2 p q) = ∑ c : Fin 512, x0 (ix2 p c) * x1 (ix2 c q) :=
  Cert.Dense.matmul_plain_apply (m := 2048) (k := 512) (n := 1024)
    dot_S2048x512_S512x1024_S2048x1024_1_0_0_1_n_n_wf x0 x1 p q

/-- The bias row spread over the rows, at entry (p, q): the row's entry q. -/
theorem biasRows_apply (x2 : Vec Ideal S1x1024 .f32) (p : Fin 2048) (q : Fin 1024) :
    broadcastTo S2048x1024 x2 broadcasts_S1x1024_S2048x1024 (ix2 p q) = x2 (ix2 (0 : Fin 1) q) :=
  broadcastTo_1b_ab_apply (a := 2048) (b := 1024) x2 broadcasts_S1x1024_S2048x1024 p q

end Cert.KernelIdeal.Payloads

end
-- ==== Proof.Accum.lean ====
/-
  The running block across the reduction steps of one output block. Grid points come in runs of 8 that share an
  output block: the run's first point starts the running block from zero and adds its product of blocks, each
  later point adds its own product to what the point before left. So after the point at offset j of its run the
  running block is, entry by entry, zero plus the sum of the products of the run's points 0 … j.
-/
import proofs.«109272_j18107582120284_2_alg».proof.Proof.Gen.KernelIdeal.Value
import proofs.«109272_j18107582120284_2_alg».proof.Proof.Pieces
import proofs.«109272_j18107582120284_2_alg».proof.Proof.Payloads

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Payloads

variable (m : (ℓ : Loc nD τ sig) → Buf (Elt Ideal) ℓ)

/-- The product of blocks that grid point n adds to the running block (zero past the grid: never consulted). -/
def addend (c : Dev nD) (n : ℕ) : S2048x1024.Idx → EReal := fun y =>
  if h : n < cfg0.N then
    stepProd (F := Ideal) (iblk m c 0 (⟨n, h⟩ : Fin cfg0.N)) (iblk m c 1 (⟨n, h⟩ : Fin cfg0.N)) y
  else 0

theorem addend_of_lt (c : Dev nD) (n : ℕ) (h : n < cfg0.N) (y : S2048x1024.Idx) :
    addend m c n y
      = stepProd (F := Ideal) (iblk m c 0 (⟨n, h⟩ : Fin cfg0.N)) (iblk m c 1 (⟨n, h⟩ : Fin cfg0.N)) y := by
  unfold addend
  rw [dif_pos h]

/-- At the first point of a run the running block becomes zero plus that point's product, whatever it held. -/
theorem step_first (c : Dev nD) (n : ℕ) (hb : n < cfg0.N) (h0 : n % 8 = 0) (acc : Vec Ideal S2048x1024 .f32)
    (y : S2048x1024.Idx) :
    Value.scAt0_0 m c n hb acc y = 0 + addend m c n y := by
  have h1 : ¬n % 8 = 7 := by omega
  unfold Value.scAt0_0
  rw [dif_pos h0, dif_neg h1]
  rw [Pieces.sout_A (F := Ideal) c (grid0.coords (⟨n, hb⟩ : Fin cfg0.N)) (ms0_0 (⟨n, hb⟩ : Fin cfg0.N)) (hs0_0 (⟨n, hb⟩ : Fin cfg0.N))
    (ms0_1 (⟨n, hb⟩ : Fin cfg0.N)) (hs0_1 (⟨n, hb⟩ : Fin cfg0.N)) (ms0_2 (⟨n, hb⟩ : Fin cfg0.N)) (hs0_2 (⟨n, hb⟩ : Fin cfg0.N))
    (ms0_3 (⟨n, hb⟩ : Fin cfg0.N)) (hs0_3 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h))
    (iblk m c 0 (⟨n, hb⟩ : Fin cfg0.N)) (iblk m c 1 (⟨n, hb⟩ : Fin cfg0.N)) (iblk m c 2 (⟨n, hb⟩ : Fin cfg0.N))]
  rw [pay2_eq, pay1_eq, addend_of_lt m c n hb]
  show zeroBlock (F := Ideal) y + _ = _
  rw [zeroBlock_apply]

/-- At every later point of a run the running block becomes what the point before left plus the point's product. -/
theorem step_next (c : Dev nD) (n : ℕ) (hb : n < cfg0.N) (h0 : ¬n % 8 = 0) (acc : Vec Ideal S2048x1024 .f32)
    (y : S2048x1024.Idx) :
    Value.scAt0_0 m c n hb acc y = acc y + addend m c n y := by
  unfold Value.scAt0_0
  rw [dif_neg h0]
  by_cases h1 : n % 8 = 7
  · rw [dif_pos h1]
    rw [Pieces.sout_C (F := Ideal) c (grid0.coords (⟨n, hb⟩ : Fin cfg0.N)) (ms0_0 (⟨n, hb⟩ : Fin cfg0.N)) (hs0_0 (⟨n, hb⟩ : Fin cfg0.N))
      (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1)
      (iblk m c 0 (⟨n, hb⟩ : Fin cfg0.N)) (iblk m c 1 (⟨n, hb⟩ : Fin cfg0.N)) (iblk m c 2 (⟨n, hb⟩ : Fin cfg0.N)) acc]
    rw [pay2_eq, addend_of_lt m c n hb]
    rfl
  · rw [dif_neg h1]
    rw [Pieces.sout_B (F := Ideal) c (grid0.coords (⟨n, hb⟩ : Fin cfg0.N)) (ms0_0 (⟨n, hb⟩ : Fin cfg0.N)) (hs0_0 (⟨n, hb⟩ : Fin cfg0.N))
      (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h))
      (iblk m c 0 (⟨n, hb⟩ : Fin cfg0.N)) (iblk m c 1 (⟨n, hb⟩ : Fin cfg0.N)) (iblk m c 2 (⟨n, hb⟩ : Fin cfg0.N)) acc]
    rw [pay2_eq, addend_of_lt m c n hb]
    rfl

/-- THE RUNNING BLOCK after grid point t: zero plus the products of the points of t's run up to t. -/
theorem running (c : Dev nD) (t : Fin cfg0.N) (y : S2048x1024.Idx) :
    (outsAt0 m c t.val t.isLt).2 y
      = 0 + ∑ s ∈ Finset.range (t.val % 8 + 1), addend m c (8 * (t.val / 8) + s) y := by
  rw [Value.soutsAt0_0_eq m c t]
  exact Pipeline.accAt_add_apply (fun n h => Value.scAt0_0 m c n h (VS0_0.read (Elt Ideal) VS0_0.junk)) (Value.scAt0_0 m c)
    (fun _ => (0 : EReal)) (addend m c) (8 * (t.val / 8)) 7
    (fun h i => step_first m c _ h (by omega) _ i)
    (fun n h acc i hlo hhi => step_next m c n h (by omega) acc i)
    (t.val % 8) (by omega) _ y

end Cert.KernelIdeal.Accum

end
-- ==== Proof.Spec.lean ====
/-
  The mathematics of a masked dense layer computed in blocks, apart from any program.

  The layer's output at row r and column s is  (∑ over k of x(r, k) · (kernel(k, s) · window(k, s))) + bias(s),
  the sum over all 4096 shared positions. A blocked computation runs over the shared positions in 8 consecutive
  blocks of 512 and adds the blocks' partial sums one after the other. Over any commutative additive monoid — the
  extended reals included, where sums may be infinite — a sum over the first L·n naturals is the sum of its n
  consecutive blocks of length L, so the two ways of summing agree; no finiteness is needed.
-/
import Idealize.ShloMosaic.PureOps.Ideal
import Idealize.ShloMosaic.Lib.ValueIdx
import Mathlib.Algebra.BigOperators.Fin
import Mathlib.Algebra.BigOperators.Intervals

noncomputable section

namespace Cert.MaskedDense

open Idealize.ShloMosaic Idealize.ShloMosaic.ValueIdx

/-- The 4096×4096 matrices and the length-4096 vectors of the layer, at the exact values. -/
abbrev Mat : Type := (⟨2, ![4096, 4096]⟩ : Shape).Idx → EReal
abbrev Vect : Type := (⟨1, ![4096]⟩ : Shape).Idx → EReal

/-- The masked weight: the kernel matrix times the window, entry by entry. -/
def masked (kernel window : Mat) : Mat := fun i => kernel i * window i

/-- THE LAYER: output entry (r, s) is the row of x times the column of the masked weight, plus the bias at s. -/
def layerAt (x kernel window : Mat) (bias : Vect) (r s : Fin 4096) : EReal :=
  (∑ k : Fin 4096, x (ix2 r k) * masked kernel window (ix2 k s)) + bias (ix1 s)

/-- The layer's output as a matrix. -/
def layer (x kernel window : Mat) (bias : Vect) : Mat :=
  fun i => layerAt x kernel window bias ⟨(i 0).val, idx2_lt0 i⟩ ⟨(i 1).val, idx2_lt1 i⟩

/-- A matrix read at natural-number coordinates; zero outside the matrix (never consulted). -/
def at2 (A : Mat) (r k : ℕ) : EReal := if h : r < 4096 ∧ k < 4096 then A (ix2 ⟨r, h.1⟩ ⟨k, h.2⟩) else 0

/-- An entry of a matrix is its reading at the entry's coordinates. -/
theorem at2_of_idx (A : Mat) (i : (⟨2, ![4096, 4096]⟩ : Shape).Idx) (r k : ℕ) (h0 : (i 0).val = r) (h1 : (i 1).val = k) :
    A i = at2 A r k := by
  subst h0 h1
  unfold at2
  rw [dif_pos ⟨(i 0).isLt, (i 1).isLt⟩]
  exact congrArg A (eq_ix2 i)

theorem at2_ix2 (A : Mat) (r k : Fin 4096) : A (ix2 r k) = at2 A r.val k.val :=
  at2_of_idx A _ _ _ rfl rfl

/-- A sum over the first L·n naturals is the sum of its n consecutive blocks of length L. -/
theorem sum_range_blocks {M : Type} [AddCommMonoid M] (L : ℕ) (f : ℕ → M) :
    ∀ n : ℕ, ∑ k ∈ Finset.range (L * n), f k = ∑ s ∈ Finset.range n, ∑ c ∈ Finset.range L, f (L * s + c)
  | 0 => by simp
  | n + 1 => by
    rw [Nat.mul_succ, Finset.sum_range_add, sum_range_blocks L f n, Finset.sum_range_succ]

/-- The sum over the 4096 shared positions, in 8 consecutive blocks of 512. -/
theorem sum_4096_blocks {M : Type} [AddCommMonoid M] (f : ℕ → M) :
    ∑ k : Fin 4096, f k.val = ∑ s ∈ Finset.range 8, ∑ c : Fin 512, f (512 * s + c.val) := by
  rw [Fin.sum_univ_eq_sum_range f 4096, show 4096 = 512 * 8 from rfl, sum_range_blocks 512 f 8]
  exact Finset.sum_congr rfl fun s _ => (Fin.sum_univ_eq_sum_range (fun c => f (512 * s + c)) 512).symm

/-- THE LAYER BY BLOCKS: the blocked sum over the shared positions, read at natural coordinates, plus the bias, is
    the layer's entry. -/
theorem layer_blocks (x kernel window : Mat) (bias : Vect) (r s : Fin 4096) :
    (∑ b ∈ Finset.range 8, ∑ c : Fin 512,
        at2 x r.val (512 * b + c.val) * at2 (masked kernel window) (512 * b + c.val) s.val) + bias (ix1 s)
      = layerAt x kernel window bias r s := by
  unfold layerAt
  rw [← sum_4096_blocks (fun k => at2 x r.val k * at2 (masked kernel window) k s.val)]
  congr 1
  exact Finset.sum_congr rfl fun k _ => by rw [at2_ix2 x, at2_ix2 (masked kernel window)]

end Cert.MaskedDense

end
-- ==== Proof.Blocks.lean ====
/-
  Where each block of a grid point sits in the whole matrices. The grid point numbered t (of 64) has row-block
  t / 32, column-block (t / 8) mod 4 and reduction step t mod 8. Its left block is rows 2048·(t/32) … of x and
  shared positions 512·(t mod 8) …; its right block is the same shared positions and columns 1024·((t/8) mod 4) … of
  the masked weight; its bias block is the same columns of the bias. Before the grid starts the program has formed
  the masked weight entry by entry and laid the bias out as a one-row matrix; storing x and the masked weight
  in a shorter float format changes nothing at the exact values.
-/
import proofs.«109272_j18107582120284_2_alg».proof.Proof.Gen.KernelIdeal.Frame
import proofs.«109272_j18107582120284_2_alg».proof.Proof.Spec
import Idealize.ShloMosaic.Lib.StableHlo.Run
import Idealize.ShloMosaic.Lib.ValueLayout
import Idealize.ShloMosaic.Lib.Pipeline.Value

noncomputable section

namespace Cert.KernelIdeal.Blocks

open Idealize.ShloMosaic Idealize.ShloMosaic.TcCoe Idealize.SL.Sem Idealize.ShloMosaic.ValueIdx
open Cert.KernelIdeal Cert.KernelIdeal.Gen Cert.MaskedDense

variable (m : (ℓ : Loc nD τ sig) → Buf (Elt Ideal) ℓ)

/-- The left matrix as the grid finds it: x itself. -/
theorem V_left (c : Dev nD) :
    (V m c main_v2 : S4096x4096.Idx → EReal) = m ((c : Thread nD τ).loc main_arg0) := by
  dsimp only [Gen.V, Gen.hostOps0]; after_results; rfl

/-- The right matrix as the grid finds it: the masked weight. -/
theorem V_right (c : Dev nD) :
    (V m c main_v1 : S4096x4096.Idx → EReal)
      = masked (m ((c : Thread nD τ).loc main_arg1)) (m ((c : Thread nD τ).loc main_arg2)) := by
  dsimp only [Gen.V, Gen.hostOps0]; after_results; rfl

/-- The bias as the grid finds it: laid out as a one-row matrix. -/
theorem V_bias (c : Dev nD) :
    (V m c main_v3 : S1x4096.Idx → EReal)
      = shapeCast S1x4096 (m ((c : Thread nD τ).loc main_arg3)) shapeCasts_S4096_S1x4096 := by
  dsimp only [Gen.V, Gen.hostOps0]; after_results; rfl

/-- The block numbers of the four windows at grid point t. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The left block of point t at (p, k): x at row 2048·(t/32) + p, shared position 512·(t mod 8) + k. -/
theorem left_blk (c : Dev nD) (t : Fin cfg0.N) (p : Fin 2048) (k : Fin 512) :
    (iblk m c 0 t : Vec Ideal S2048x512 .bf16) (ix2 p k)
      = at2 (m ((c : Thread nD τ).loc main_arg0)) (2048 * (t.val / 32) + p.val) (512 * (t.val % 8) + k.val) := by
  unfold iblk
  rw [View.read_apply]
  show V m c main_v2 (((cfg0.win 0).blk t).view.emb (ix2 p k)) = _
  rw [V_left]
  obtain ⟨e0, e1, -⟩ := idx_facts t
  refine at2_of_idx _ _ _ _ ?_ ?_
  · show win0_0.index t (0 : Fin 2) * 2048 + 1 * p.val = _
    rw [e0]; omega
  · show win0_0.index t (1 : Fin 2) * 512 + 1 * k.val = _
    rw [e1]; omega

/-- The right block of point t at (k, q): the masked weight at shared position 512·(t mod 8) + k, column
    1024·((t/8) mod 4) + q. -/
theorem right_blk (c : Dev nD) (t : Fin cfg0.N) (k : Fin 512) (q : Fin 1024) :
    (iblk m c 1 t : Vec Ideal S512x1024 .bf16) (ix2 k q)
      = at2 (masked (m ((c : Thread nD τ).loc main_arg1)) (m ((c : Thread nD τ).loc main_arg2)))
          (512 * (t.val % 8) + k.val) (1024 * (t.val / 8 % 4) + q.val) := by
  unfold iblk
  rw [View.read_apply]
  show V m c main_v1 (((cfg0.win 1).blk t).view.emb (ix2 k q)) = _
  rw [V_right]
  obtain ⟨-, -, e0, e1, -⟩ := idx_facts t
  refine at2_of_idx _ _ _ _ ?_ ?_
  · show win0_1.index t (0 : Fin 2) * 512 + 1 * k.val = _
    rw [e0]; omega
  · show win0_1.index t (1 : Fin 2) * 1024 + 1 * q.val = _
    rw [e1]; omega

/-- The bias block of point t at (0, q): the bias at column 1024·((t/8) mod 4) + q. -/
theorem bias_blk (c : Dev nD) (t : Fin cfg0.N) (q : Fin 1024) (hq : 1024 * (t.val / 8 % 4) + q.val < 4096) :
    (iblk m c 2 t : Vec Ideal S1x1024 .f32) (ix2 (0 : Fin 1) q)
      = m ((c : Thread nD τ).loc main_arg3) (ix1 ⟨1024 * (t.val / 8 % 4) + q.val, hq⟩) := by
  unfold iblk
  rw [View.read_apply]
  show V m c main_v3 (((cfg0.win 2).blk t).view.emb (ix2 (0 : Fin 1) q)) = _
  rw [V_bias]
  obtain ⟨-, -, -, -, e0, e1, -⟩ := idx_facts t
  have hidx : ((cfg0.win 2).blk t).view.emb (ix2 (0 : Fin 1) q)
      = ix2 (0 : Fin 1) (⟨1024 * (t.val / 8 % 4) + q.val, hq⟩ : Fin 4096) := by
    funext a; apply Fin.ext
    match a with
    | ⟨0, _⟩ => show win0_2.index t (0 : Fin 2) * 1 + 1 * 0 = 0; rw [e0]
    | ⟨1, _⟩ => show win0_2.index t (1 : Fin 2) * 1024 + 1 * q.val = 1024 * (t.val / 8 % 4) + q.val; rw [e1]; omega
  rw [hidx]
  exact shapeCast_a_1a_apply (a := 4096) (m ((c : Thread nD τ).loc main_arg3)) shapeCasts_S4096_S1x4096 0 _

end Cert.KernelIdeal.Blocks

end
-- ==== Proof.Whole.lean ====
/-
  The output matrix of the blocked computation, entry by entry. The output block (row-block I, column-block J) is
  written once, by the last grid point of the run of 8 points that share it, and what that point writes at (p, q)
  is the finished running entry plus the bias: the sum, over the 8 reduction steps b and the 512 positions c of a
  step, of x(2048·I + p, 512·b + c) times the masked weight at (512·b + c, 1024·J + q), plus bias(1024·J + q). Summing
  the 4096 shared positions in 8 consecutive blocks is summing them all, so that is the layer's entry
  (2048·I + p, 1024·J + q). The 8 output blocks tile the whole matrix, so the matrix ends as the layer's output.
-/
import proofs.«109272_j18107582120284_2_alg».proof.Proof.Gen.KernelIdeal.Value
import proofs.«109272_j18107582120284_2_alg».proof.Proof.Accum
import proofs.«109272_j18107582120284_2_alg».proof.Proof.Blocks
import proofs.«109272_j18107582120284_2_alg».proof.Proof.Spec

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payloads Cert.MaskedDense

variable (m : (ℓ : Loc nD τ sig) → Buf (Elt Ideal) ℓ) (ρ : Dev nD → PrngReg)

/-- The layer's output of the four argument arrays. -/
def result (c : Dev nD) : S4096x4096.Idx → EReal :=
  layer (m ((c : Thread nD τ).loc main_arg0)) (m ((c : Thread nD τ).loc main_arg1))
    (m ((c : Thread nD τ).loc main_arg2)) (m ((c : Thread nD τ).loc main_arg3))

/-- The product that point 8·u + b of a run adds, at (p, q): step b's 512 terms of the layer's sum. -/
theorem addend_entry (c : Dev nD) (u b : ℕ) (hu : u < 8) (hb : b < 8) (p : Fin 2048) (q : Fin 1024) :
    Accum.addend m c (8 * u + b) (ix2 p q)
      = ∑ k : Fin 512, at2 (m ((c : Thread nD τ).loc main_arg0)) (2048 * (u / 4) + p.val) (512 * b + k.val)
          * at2 (masked (m ((c : Thread nD τ).loc main_arg1)) (m ((c : Thread nD τ).loc main_arg2)))
              (512 * b + k.val) (1024 * (u % 4) + q.val) := by
  have hN : cfg0.N = 64 := N_0
  have hn : 8 * u + b < cfg0.N := by omega
  rw [Accum.addend_of_lt m c _ hn, stepProd_apply]
  refine Finset.sum_congr rfl fun k _ => ?_
  rw [Blocks.left_blk m c ⟨8 * u + b, hn⟩ p k, Blocks.right_blk m c ⟨8 * u + b, hn⟩ k q]
  have e1 : (8 * u + b) / 32 = u / 4 := by omega
  have e2 : (8 * u + b) % 8 = b := by omega
  have e3 : (8 * u + b) / 8 % 4 = u % 4 := by omega
  show at2 _ (2048 * ((8 * u + b) / 32) + p.val) (512 * ((8 * u + b) % 8) + k.val)
      * at2 _ (512 * ((8 * u + b) % 8) + k.val) (1024 * ((8 * u + b) / 8 % 4) + q.val) = _
  rw [e1, e2, e3]

/-- What the last point of a run leaves in the output block, at (p, q): the layer's entry. -/
theorem out_entry (c : Dev nD) (t : Fin cfg0.N) (h0 : ¬t.val % 8 = 0) (h1 : t.val % 8 = 7) (p : Fin 2048) (q : Fin 1024)
    (hr : 2048 * (t.val / 32) + p.val < 4096) (hs : 1024 * (t.val / 8 % 4) + q.val < 4096) :
    (outsAt0 m c t.val t.isLt).1 (ix2 p q)
      = layerAt (m ((c : Thread nD τ).loc main_arg0)) (m ((c : Thread nD τ).loc main_arg1))
          (m ((c : Thread nD τ).loc main_arg2)) (m ((c : Thread nD τ).loc main_arg3))
          ⟨2048 * (t.val / 32) + p.val, hr⟩ ⟨1024 * (t.val / 8 % 4) + q.val, hs⟩ := by
  have hN : cfg0.N = 64 := N_0
  have e := outsAt0_C m c t h0 h1
  have e2 := congrArg Prod.snd e
  have e1 := congrArg Prod.fst e
  dsimp only at e1 e2
  rw [Pieces.sout_C (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2] at e2
  rw [Pieces.out_C (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2] at e1
  rw [e1, ← e2, pay3_eq]
  show (outsAt0 m c t.val t.isLt).2 (ix2 p q) + broadcastTo S2048x1024 (iblk m c 2 t) broadcasts_S1x1024_S2048x1024 (ix2 p q) = _
  rw [biasRows_apply, Blocks.bias_blk m c t q hs, Accum.running m c t (ix2 p q), h1, zero_add]
  rw [← layer_blocks]
  congr 1
  refine Finset.sum_congr rfl fun b hb => ?_
  have hb8 : b < 8 := Finset.mem_range.mp hb
  have hu : t.val / 8 < 8 := by have := t.isLt; omega
  rw [addend_entry m c (t.val / 8) b hu hb8 p q]
  have e3 : t.val / 8 / 4 = t.val / 32 := by omega
  rw [e3]

/-- What the last point of a run writes back is its block of the layer's output. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have h0 : ¬t.val % 8 = 0 := by omega
  have hN : cfg0.N = 64 := N_0
  have ht : t.val < 64 := lt_of_lt_of_eq t.isLt hN
  obtain ⟨-, -, -, -, -, -, i0, i1⟩ := Blocks.idx_facts t
  rw [Value.flushed3]
  funext y
  have hp : (y 0).val < 2048 := (y 0).isLt
  have hq : (y 1).val < 1024 := (y 1).isLt
  have hy : y = (ix2 (⟨(y 0).val, hp⟩ : Fin 2048) (⟨(y 1).val, hq⟩ : Fin 1024) : S2048x1024.Idx) :=
    funext fun a => match a with | ⟨0, _⟩ => rfl | ⟨1, _⟩ => rfl
  have hr : 2048 * (t.val / 32) + (y 0).val < 4096 := by omega
  have hs : 1024 * (t.val / 8 % 4) + (y 1).val < 4096 := by omega
  show (outsAt0 m c t.val t.isLt).1 y = result m c (((cfg0.win 3).blk t).view.emb y)
  rw [congrArg (outsAt0 m c t.val t.isLt).1 hy, out_entry m c t h0 h1 ⟨(y 0).val, hp⟩ ⟨(y 1).val, hq⟩ hr hs]
  unfold result layer
  congr 1
  · apply Fin.ext
    show 2048 * (t.val / 32) + (y 0).val = win0_3.index t (0 : Fin 2) * 2048 + 1 * (y 0).val
    rw [i0]; omega
  · apply Fin.ext
    show 1024 * (t.val / 8 % 4) + (y 1).val = win0_3.index t (1 : Fin 2) * 1024 + 1 * (y 1).val
    rw [i1]; omega

/-- An entry of the output matrix lies in a point's output block iff each coordinate lies in the block's range. -/
theorem mem_blk (t : Fin cfg0.N) (i : S4096x4096.Idx) :
    i ∈ ((cfg0.win 3).blk t).view.set
      ↔ ∀ a : Fin 2, win0_3.index t a * S2048x1024.size a ≤ (i a).val ∧ (i a).val < win0_3.index t a * S2048x1024.size a + S2048x1024.size a := by
  show i ∈ ((View.whole main_v4).slice (win0_3.rect t)).set ↔ _
  rw [View.set_slice_whole, Rect.mem_set_unit]
  exact Iff.rfl

/-- Every entry of the output matrix lies in the output block of some run's last point. -/
theorem cover (i : S4096x4096.Idx) :
    ∃ t : Fin cfg0.N, (cfg0.win 3).flush t = true ∧ i ∈ ((cfg0.win 3).blk t).view.set := by
  have hN : cfg0.N = 64 := N_0
  have hi0 : (i 0).val < 4096 := (i 0).isLt
  have hi1 : (i 1).val < 4096 := (i 1).isLt
  have htN : 32 * ((i 0).val / 2048) + 8 * ((i 1).val / 1024) + 7 < cfg0.N := by omega
  refine ⟨⟨32 * ((i 0).val / 2048) + 8 * ((i 1).val / 1024) + 7, htN⟩, (flush0_3 _).mpr (by show (32 * ((i 0).val / 2048) + 8 * ((i 1).val / 1024) + 7) % 8 = 7; omega), ?_⟩
  obtain ⟨-, -, -, -, -, -, i0, i1⟩ := Blocks.idx_facts ⟨32 * ((i 0).val / 2048) + 8 * ((i 1).val / 1024) + 7, htN⟩
  rw [mem_blk]
  intro a
  match a with
  | ⟨0, _⟩ =>
    show win0_3.index _ (0 : Fin 2) * 2048 ≤ (i 0).val ∧ (i 0).val < win0_3.index _ (0 : Fin 2) * 2048 + 2048
    rw [i0]
    show (32 * ((i 0).val / 2048) + 8 * ((i 1).val / 1024) + 7) / 32 * 2048 ≤ (i 0).val
      ∧ (i 0).val < (32 * ((i 0).val / 2048) + 8 * ((i 1).val / 1024) + 7) / 32 * 2048 + 2048
    omega
  | ⟨1, _⟩ =>
    show win0_3.index _ (1 : Fin 2) * 1024 ≤ (i 1).val ∧ (i 1).val < win0_3.index _ (1 : Fin 2) * 1024 + 1024
    rw [i1]
    show (32 * ((i 0).val / 2048) + 8 * ((i 1).val / 1024) + 7) / 8 % 4 * 1024 ≤ (i 1).val
      ∧ (i 1).val < (32 * ((i 0).val / 2048) + 8 * ((i 1).val / 1024) + 7) / 8 % 4 * 1024 + 1024
    omega

/-- THE OUTPUT MATRIX after the run is the layer's output of the argument arrays. -/
theorem final (c : Dev nD) : (dats m 0 c).arrAt 3 cfg0.N = result m c :=
  (dats m 0 c).arrAt_eq_of_cover 3 (result m c) (flushed_eq m c) cover

/-- The run, read: the result array ends at the layer's output, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference computes the layer directly: it forms the masked weight entry by entry, takes the whole matrix
  product with x — at the exact values, entry (r, s) is the sum over all 4096 shared positions of x(r, k) times the
  masked weight at (k, s) —, lays the bias out as a row, repeats the row down the rows and adds. Read at an entry this
  is the layer's entry as the specification states it.
-/
import proofs.«109272_j18107582120284_2_alg».proof.Proof.Gen.ReferenceIdeal.Read
import proofs.«109272_j18107582120284_2_alg».proof.Proof.Spec

noncomputable section

namespace Cert.ReferenceIdeal.RefValue

open Idealize.ShloMosaic Idealize.ShloMosaic.TcCoe Idealize.ShloMosaic.ValueIdx
open Cert.ReferenceIdeal Cert.ReferenceIdeal.Read Cert.MaskedDense

/-- The reference's result, as a function of its four arguments, is the layer's output. -/
theorem ref_is_layer (x0 x1 x2 : S4096x4096.Idx → EReal) (x3 : S4096.Idx → EReal) :
    val_main_v4 (F := Ideal) x0 x1 x2 x3 = layer x0 x1 x2 x3 := by
  funext i
  have el : ∀ k : Fin 4096, lidx_main_v1 i k = ix2 (⟨(i 0).val, idx2_lt0 i⟩ : Fin 4096) k := fun k =>
    funext fun a => Fin.ext (by match a with | ⟨0, _⟩ => rfl | ⟨1, _⟩ => rfl)
  have er : ∀ k : Fin 4096, ridx_main_v1 i k = ix2 k (⟨(i 1).val, idx2_lt1 i⟩ : Fin 4096) := fun k =>
    funext fun a => Fin.ext (by match a with | ⟨0, _⟩ => rfl | ⟨1, _⟩ => rfl)
  have eb : idx_main_v2 (idx_main_v3 i) = ix1 (⟨(i 1).val, idx2_lt1 i⟩ : Fin 4096) :=
    funext fun a => Fin.ext (by match a with | ⟨0, _⟩ => rfl)
  rw [val_main_v4_apply, val_main_v1_apply, val_main_v3_apply, val_main_v2_apply, eb]
  unfold layer layerAt
  show (∑ k : Fin 4096, x0 (lidx_main_v1 i k) * val_main_v0 (F := Ideal) x1 x2 (ridx_main_v1 i k)) + _ = _
  congr 1
  refine Finset.sum_congr rfl fun k _ => ?_
  rw [el k, er k]
  rfl

end Cert.ReferenceIdeal.RefValue

end
-- ==== Proof.lean ====
/-
  A masked dense layer, y = x · (kernel ∘ window) + bias over 4096×4096 matrices, computed in blocks, against its
  direct definition — equal at the exact (extended real) values.

  The blocked program first forms the masked weight kernel ∘ window entry by entry and lays the bias out as a row
  (storing x and the masked weight in a shorter float format is the identity at the exact values). It then runs a
  2 × 4 × 8 grid: output block (I, J) of 2048 × 1024 entries is accumulated over 8 reduction steps, step b adding the
  product of x's block (I, b) of 2048 × 512 with the masked weight's block (b, J) of 512 × 1024 to a running block
  that the first step starts from zero; the last step adds the bias row and writes the block out. So entry
  (2048·I + p, 1024·J + q) of the output is

      (∑ b < 8, ∑ c < 512, x(2048·I + p, 512·b + c) · (kernel ∘ window)(512·b + c, 1024·J + q)) + bias(1024·J + q),

  and summing the 4096 shared positions in 8 consecutive blocks of 512 is summing them all: addition of extended
  reals is commutative and associative with unit zero, so regrouping a finite sum needs no finiteness of the
  inputs. The reference takes the whole product of x with kernel ∘ window and adds the bias spread over the rows: the
  same entry. Both programs leave their arguments unchanged; the rewriting of the kernel into its exact form changed
  no operation, so there is nothing to preserve.

  Modules: Spec (the layer and the regrouping of its sum), Pieces and Payloads (what one grid point stores, as
  values), Blocks (where a point's blocks sit in the matrices), Accum (the running block across a run of points),
  Whole (the output matrix after the run), RefValue (the reference is the layer), LibDense (general lemmas on plain
  matrix products and layouts read at an entry).
-/
import proofs.«109272_j18107582120284_2_alg».proof.Defs
import proofs.«109272_j18107582120284_2_alg».proof.Proof.Gen.Kernel
import proofs.«109272_j18107582120284_2_alg».proof.Proof.Gen.Kernel.Skeleton
import proofs.«109272_j18107582120284_2_alg».proof.Proof.Gen.Kernel.Launch
import proofs.«109272_j18107582120284_2_alg».proof.Proof.Gen.Kernel.Points
import proofs.«109272_j18107582120284_2_alg».proof.Proof.Gen.Kernel.Frame
import proofs.«109272_j18107582120284_2_alg».proof.Proof.Gen.KernelIdeal
import proofs.«109272_j18107582120284_2_alg».proof.Proof.Gen.KernelIdeal.Skeleton
import proofs.«109272_j18107582120284_2_alg».proof.Proof.Gen.KernelIdeal.Launch
import proofs.«109272_j18107582120284_2_alg».proof.Proof.Gen.KernelIdeal.Points
import proofs.«109272_j18107582120284_2_alg».proof.Proof.Gen.KernelIdeal.Frame
import proofs.«109272_j18107582120284_2_alg».proof.Proof.Gen.ReferenceIdeal
import proofs.«109272_j18107582120284_2_alg».proof.Proof.Gen.Pre_finite_inputs
import proofs.«109272_j18107582120284_2_alg».proof.Proof.Gen.KernelIdeal.Value
import proofs.«109272_j18107582120284_2_alg».proof.Proof.Gen.ReferenceIdeal.Run
import proofs.«109272_j18107582120284_2_alg».proof.Proof.Gen.ReferenceIdeal.Read
import proofs.«109272_j18107582120284_2_alg».proof.Proof.Whole
import proofs.«109272_j18107582120284_2_alg».proof.Proof.RefValue
import Idealize.ShloMosaic.Adequacy
import Idealize.ShloMosaic.Init

noncomputable section

namespace Cert.Proof

open Idealize.ShloMosaic Idealize.ShloMosaic.TcCoe Idealize.SL.Sem

/-- The blocked program as printed runs and leaves its arguments as they were. -/
theorem frame_k : Cert.frame_Kernel := fun m ρ _ => Cert.Kernel.Gen.frame m ρ

/-- So does its reading at the exact values. -/
theorem frame_ki : Cert.frame_KernelIdeal := fun m ρ _ => Cert.KernelIdeal.Gen.frame m ρ

/-- The reference runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the exact reading. -/
theorem preserves : Cert.preserves_Kernel_KernelIdeal := trivial

/-- From arguments that agree, both programs end with the layer's output of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_is_layer,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
